-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S16x512x8192 : S_.BroadcastsInDim S16x512x8192 (![] : Fin 0 → Fin S16x512x8192.rank)
  reducesTo_S16x512x8192_S_d0_1_2 : S16x512x8192.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16x512x8192 .f32) (main_arg1 : FVec F S32x512 .f32) (main_arg2 : FVec F S32 .f32) (main_arg3 : FVec F S512x32 .f32) (main_arg4 : FVec F S512 .f32) : IVec S_ 1 :=
  let main_v0 : FVec F S16x512x8192 .f32 := Host.absf main_arg0
  let main_cst : FVec F S_ .f32 := constant S_ .f32 0x7F800000#32
  let main_v1 : FVec F S16x512x8192 .f32 := broadcastInDim S16x512x8192 ![] bcast_S_S16x512x8192 main_cst
  let main_v2 : IVec S16x512x8192 1 := cmpf .olt main_v0 main_v1
  let main_c : IVec S_ 1 := constantI S_ 1 1#1
  let main_v3 : IVec S_ 1 := (fun x v => Host.reduce IntOp.andi x v reducesTo_S16x512x8192_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S16x512 : Shape := ⟨2, ![16, 512]⟩
abbrev S16x256x1024 : Shape := ⟨3, ![16, 256, 1024]⟩
abbrev S16x256 : Shape := ⟨2, ![16, 256]⟩
abbrev S_ : Shape := ⟨0, ![]⟩
abbrev S16x32 : Shape := ⟨2, ![16, 32]⟩
abbrev S1x32 : Shape := ⟨2, ![1, 32]⟩
abbrev S1x512 : Shape := ⟨2, ![1, 512]⟩
abbrev S16x512x256 : Shape := ⟨3, ![16, 512, 256]⟩
abbrev S16x512x1 : Shape := ⟨3, ![16, 512, 1]⟩

abbrev nBuf : Space → Nat
  | .hbm => 31
  | .vmem => 9
  | .smem => 0
  | _ => 0

abbrev bufTy : (tb : Table) → Fin (tcTables nBuf tb) → BufTy
  | .hbm, ⟨0, _⟩ => ⟨S16x512x8192, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S16x512, .f32⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S512x32, .f32⟩
  | .hbm, ⟨10, _⟩ => ⟨S16x32, .f32⟩
  | .hbm, ⟨11, _⟩ => ⟨S1x32, .f32⟩
  | .hbm, ⟨12, _⟩ => ⟨S16x32, .f32⟩
  | .hbm, ⟨13, _⟩ => ⟨S16x32, .f32⟩
  | .hbm, ⟨14, _⟩ => ⟨S_, .f32⟩
  | .hbm, ⟨15, _⟩ => ⟨S16x32, .f32⟩
  | .hbm, ⟨16, _⟩ => ⟨S16x32, .f32⟩
  | .hbm, ⟨17, _⟩ => ⟨S32x512, .f32⟩
  | .hbm, ⟨18, _⟩ => ⟨S16x512, .f32⟩
  | .hbm, ⟨19, _⟩ => ⟨S1x512, .f32⟩
  | .hbm, ⟨20, _⟩ => ⟨S16x512, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S_, .f32⟩
  | .hbm, ⟨25, _⟩ => ⟨S16x512, .f32⟩
  | .hbm, ⟨26, _⟩ => ⟨S16x512, .f32⟩
  | .hbm, ⟨27, _⟩ => ⟨S_, .f32⟩
  | .hbm, ⟨28, _⟩ => ⟨S16x512, .f32⟩
  | .hbm, ⟨29, _⟩ => ⟨S16x512, .f32⟩
  | .hbm, ⟨30, _⟩ => ⟨S16x512x8192, .f32⟩
  | .local _ .vmem, ⟨0, _⟩ => ⟨S16x256x1024, .f32⟩
  | .local _ .vmem, ⟨1, _⟩ => ⟨S16x256x1024, .f32⟩
  | .local _ .vmem, ⟨2, _⟩ => ⟨S16x256, .f32⟩
  | .local _ .vmem, ⟨3, _⟩ => ⟨S16x256, .f32⟩
  | .local _ .vmem, ⟨4, _⟩ => ⟨S16x512x256, .f32⟩
  | .local _ .vmem, ⟨5, _⟩ => ⟨S16x512x256, .f32⟩
  | .local _ .vmem, ⟨6, _⟩ => ⟨S16x512, .f32⟩
  | .local _ .vmem, ⟨7, _⟩ => ⟨S16x512x256, .f32⟩
  | .local _ .vmem, ⟨8, _⟩ => ⟨S16x512x256, .f32⟩
  | _, _ => ⟨S16x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S16x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x1024_S16x256x1024_0_0_0 : ∀ a, (![0, 0, 0] : Fin 3 → Nat) a + S16x256x1024.size a ≤ S16x256x1024.size a
  h_S16x256x1024 : 0 < S16x256x1024.numel
  reduces_S16x256x1024_S16x256 : S16x256x1024.Reduces [2] S16x256
  bcast_S_S16x512 : S_.BroadcastsInDim S16x512 (![] : Fin 0 → Fin S16x512.rank)
  transposes_S32x512_S512x32_1_0 : S32x512.Transposes [1, 0] S512x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S512x32_S32x512_1_0 : S512x32.Transposes [1, 0] S32x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  inb_S16x512x256_S16x512x256_0_0_0 : ∀ a, (![0, 0, 0] : Fin 3 → Nat) a + S16x512x256.size a ≤ S16x512x256.size a
  h_S16x512x256 : 0 < S16x512x256.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S16x512_S16x512x1 : S16x512.ShapeCasts S16x512x1
  broadcasts_S16x512x1_S16x512x256 : S16x512x1.Broadcasts S16x512x256
  dot_S16x512_S512x32_S16x32_1_0_0_1_n_n_wf : DotDims.WF S16x512 S512x32 S16x32 [1] [0] [0] [1] [] []
  dot_S16x32_S32x512_S16x512_1_0_0_1_n_n_wf : DotDims.WF S16x32 S32x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S16x512x8192.size a
  hwx0_0 : ∀ i : grid0.Coords, EltTy.bits .f32 = 32 ∨ (Rect.block (s := S16x512x8192) S16x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x512.size a
  hwx0_1 : ∀ i : grid0.Coords, EltTy.bits .f32 = 32 ∨ (Rect.block (s := S16x512) S16x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512x256.size a ≤ S16x512x8192.size a
  hwx1_0 : ∀ i : grid1.Coords, EltTy.bits .f32 = 32 ∨ (Rect.block (s := S16x512x8192) S16x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512x256.size a ≤ S16x512x8192.size a
  hwx1_2 : ∀ i : grid1.Coords, EltTy.bits .f32 = 32 ∨ (Rect.block (s := S16x512x8192) S16x512x256.size (cc1_transform_2 i) (hinb1_2 i)).WholeWords (EltTy.packing .f32)

variable [Facts₀]

def dot_S16x512_S512x32_S16x32_1_0_0_1_n_n : DotDims S16x512 S512x32 S16x32 where
  lhsContracting := [1]
  rhsContracting := [0]
  lhsNonContracting := [0]
  rhsNonContracting := [1]
  lhsBatch := []
  rhsBatch := []
  wf := dot_S16x512_S512x32_S16x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S16x512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S16x512 : Shape := ⟨2, ![16, 512]⟩
abbrev S16x32 : Shape := ⟨2, ![16, 32]⟩
abbrev S1x32 : Shape := ⟨2, ![1, 32]⟩
abbrev S1x512 : Shape := ⟨2, ![1, 512]⟩
abbrev S16x512x1 : Shape := ⟨3, ![16, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x512x8192, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S512x32, .f32⟩
  | .hbm, ⟨11, _⟩ => ⟨S16x32, .f32⟩
  | .hbm, ⟨12, _⟩ => ⟨S1x32, .f32⟩
  | .hbm, ⟨13, _⟩ => ⟨S16x32, .f32⟩
  | .hbm, ⟨14, _⟩ => ⟨S16x32, .f32⟩
  | .hbm, ⟨15, _⟩ => ⟨S_, .f32⟩
  | .hbm, ⟨16, _⟩ => ⟨S16x32, .f32⟩
  | .hbm, ⟨17, _⟩ => ⟨S16x32, .f32⟩
  | .hbm, ⟨18, _⟩ => ⟨S32x512, .f32⟩
  | .hbm, ⟨19, _⟩ => ⟨S16x512, .f32⟩
  | .hbm, ⟨20, _⟩ => ⟨S1x512, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S16x512, .f32⟩
  | .hbm, ⟨25, _⟩ => ⟨S_, .f32⟩
  | .hbm, ⟨26, _⟩ => ⟨S16x512, .f32⟩
  | .hbm, ⟨27, _⟩ => ⟨S16x512, .f32⟩
  | .hbm, ⟨28, _⟩ => ⟨S_, .f32⟩
  | .hbm, ⟨29, _⟩ => ⟨S16x512, .f32⟩
  | .hbm, ⟨30, _⟩ => ⟨S16x512, .f32⟩
  | .hbm, ⟨31, _⟩ => ⟨S16x512x1, .f32⟩
  | .hbm, ⟨32, _⟩ => ⟨S16x512x8192, .f32⟩
  | .hbm, ⟨33, _⟩ => ⟨S16x512x8192, .f32⟩
  | _, _ => ⟨S16x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S16x512x8192_S16x512_d2 : S16x512x8192.ReducesTo [2] S16x512
  h_S_ : 0 < S_.numel
  bcast_S_S16x512 : S_.BroadcastsInDim S16x512 (![] : Fin 0 → Fin S16x512.rank)
  transposes_S32x512_S512x32_1_0 : S32x512.Transposes [1, 0] S512x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S512x32_S32x512_1_0 : S512x32.Transposes [1, 0] S32x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1_0_1 : S16x512.BroadcastsInDim S16x512x1 (![0, 1] : Fin 2 → Fin S16x512x1.rank)
  bcast_S16x512x1_S16x512x8192_0_1_2 : S16x512x1.BroadcastsInDim S16x512x8192 (![0, 1, 2] : Fin 3 → Fin S16x512x8192.rank)
  dot_S16x512_S512x32_S16x32_1_0_0_1_n_n_wf : DotDims.WF S16x512 S512x32 S16x32 [1] [0] [0] [1] [] []
  dot_S16x32_S32x512_S16x512_1_0_0_1_n_n_wf : DotDims.WF S16x32 S32x512 S16x512 [1] [0] [0] [1] [] []

variable [Facts₀]

def dot_S16x512_S512x32_S16x32_1_0_0_1_n_n : DotDims S16x512 S512x32 S16x32 where
  lhsContracting := [1]
  rhsContracting := [0]
  lhsNonContracting := [0]
  rhsNonContracting := [1]
  lhsBatch := []
  rhsBatch := []
  wf := dot_S16x512_S512x32_S16x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

class Facts : Prop extends Facts₀ where

variable [Facts]
-- ==== Proof.KernelRun.lean ====
/-
  The idealized kernel's run with its RESULT named.

  The program is two kernel regions with host operations between them. Running it from any memory, every
  weakly fair execution terminates, and in the final state every buffer that outlives the regions holds the
  contents obtained by following the program segment by segment from the launch memory: the first region's
  write-backs, then the host operations, then the second region's write-backs (`Gen.W5`). The frame theorem
  reads only the argument arrays off that final state; here the result array is read off it as well, so that
  the value of the result can be computed from `Gen.W5` alone.
-/
import proofs.«181361_j90417651516343_2_alg».proof.Proof.Gen.KernelIdeal.Frame

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    the segment-by-segment reading gives it, and the five argument arrays end as launched. -/
theorem run_named : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Excite.lean ====
/-
  The function both programs compute — a squeeze-and-excite block over x : [16, 512, 8192] — stated once.

    pooled x (b, c)            = 0 + ∑ₖ x (b, c, k)                        (k over the 8192 positions)
    gate s w1 b1 w2 b2         = 1 / (1 + exp (-(relu ((s / 8192) · w1ᵀ + b1) · w2ᵀ + b2)))   : [16, 512]
    scaled x g (b, c, l)       = x (b, c, l) · g (b, c)

  and the result is `scaled x (gate (pooled x) w1 b1 w2 b2)`. The gate is kept as ONE closed term of the
  host operations (division by the length, the two linear layers, the rectifier, the logistic written out):
  both programs apply exactly these operations to their pooled sums, so nothing below ever opens it.

  The one piece of algebra: a sum over 8192 positions is the sum, over 8 tiles, of the sums over the 1024
  positions of each tile. It holds in any commutative additive monoid, hence on the extended reals with no
  finiteness assumed (only commutativity and associativity of + are used).
-/
import proofs.«181361_j90417651516343_2_alg».proof.Proof.Gen.KernelIdeal
import Idealize.ShloMosaic.Lib.ValueIdx
import Idealize.ShloMosaic.PureOps.Ideal.Laws

noncomputable section

namespace Cert.KernelIdeal.Excite

open Idealize.ShloMosaic Cert.KernelIdeal Cert.KernelIdeal.Gen

/-! ## The tiled sum -/

/-- A sum over `8192 = 8 · 1024` consecutive naturals, tile by tile: position `1024·s + k` is position `k` of
    tile `s`. -/
theorem sum_tiles {M : Type*} [AddCommMonoid M] (f : ℕ → M) :
    ∑ k : Fin 8192, f k.val = ∑ s ∈ Finset.range 8, ∑ k : Fin 1024, f (1024 * s + k.val) := by
  rw [← Fin.sum_univ_eq_sum_range (fun s => ∑ k : Fin 1024, f (1024 * s + k.val)) 8]
  refine Eq.trans ?_ (Fintype.sum_prod_type' (fun (s : Fin 8) (k : Fin 1024) => f (1024 * s.val + k.val)))
  refine (Fintype.sum_equiv (finProdFinEquiv (m := 8) (n := 1024))
    (fun p => f (1024 * p.1.val + p.2.val)) (fun k : Fin (8 * 1024) => f k.val) (fun p => ?_)).symm
  rw [finProdFinEquiv_apply_val]
  exact congrArg f (by omega)

/-! ## The three stages -/

variable {F : FTy → Type} [FloatOps F]

/-- The excitation gate from the pooled sums `s` and the two layers' weights: `s / 8192` (the mean), the first
    linear layer and its rectifier, the second linear layer, and the logistic `1 / (1 + exp (-z))` — the host
    operations in the order both programs apply them, at any float instance. -/
def gate (s : (⟨S16x512, .f32⟩ : BufTy).Contents (Elt F)) (w1 : (⟨S32x512, .f32⟩ : BufTy).Contents (Elt F))
    (b1 : (⟨S32, .f32⟩ : BufTy).Contents (Elt F)) (w2 : (⟨S512x32, .f32⟩ : BufTy).Contents (Elt F))
    (b2 : (⟨S512, .f32⟩ : BufTy).Contents (Elt F)) : (⟨S16x512, .f32⟩ : BufTy).Contents (Elt F) :=
  Host.divf (broadcastInDim S16x512 ![] bcast_S_S16x512 (constant S_ .f32 0x3F800000#32))
    (addf (broadcastInDim S16x512 ![] bcast_S_S16x512 (constant S_ .f32 0x3F800000#32))
      (Host.exp (Host.negf (addf
        (Host.dotGeneral dot_S16x32_S32x512_S16x512_1_0_0_1_n_n none
          (maximumf
            (addf
              (Host.dotGeneral dot_S16x512_S512x32_S16x32_1_0_0_1_n_n none
                (Host.divf s (broadcastInDim S16x512 ![] bcast_S_S16x512 (constant S_ .f32 0x46000000#32)))
                (transpose S512x32 [1, 0] w1 transposes_S32x512_S512x32_1_0))
              (broadcastInDim S16x32 ![0, 1] bcast_S1x32_S16x32_0_1 (broadcastInDim S1x32 ![1] bcast_S32_S1x32_1 b1)))
            (broadcastInDim S16x32 ![] bcast_S_S16x32 (constant S_ .f32 0x00000000#32)))
          (transpose S32x512 [1, 0] w2 transposes_S512x32_S32x512_1_0))
        (broadcastInDim S16x512 ![0, 1] bcast_S1x512_S16x512_0_1 (broadcastInDim S1x512 ![1] bcast_S512_S1x512_1 b2))))))

/-- Position `k` of channel entry `j = (b, c)`: the index `(b, c, k)` of `x`. -/
abbrev along (j : S16x512.Idx) (k : Fin 8192) : S16x512x8192.Idx := fun a => match a with
  | ⟨0, _⟩ => ⟨(j 0).val, (j 0).isLt⟩
  | ⟨1, _⟩ => ⟨(j 1).val, (j 1).isLt⟩
  | ⟨2, _⟩ => ⟨k.val, k.isLt⟩

/-- The channel entry `(b, c)` an index `(b, c, l)` of `x` belongs to. -/
abbrev chan (i : S16x512x8192.Idx) : S16x512.Idx := fun a => match a with
  | ⟨0, _⟩ => ⟨(i 0).val, (i 0).isLt⟩
  | ⟨1, _⟩ => ⟨(i 1).val, (i 1).isLt⟩

/-- The pooled sums over the extended reals: the zero both programs start from, plus the sum over all positions. -/
def pooled (x : (⟨S16x512x8192, .f32⟩ : BufTy).Contents (Elt Ideal)) : (⟨S16x512, .f32⟩ : BufTy).Contents (Elt Ideal) :=
  fun j => Ideal.ofBits .f32 0x00000000#32 + ∑ k : Fin 8192, x (along j k)

/-- Every position of a channel entry multiplied by that entry's gate. -/
def scaled (x : (⟨S16x512x8192, .f32⟩ : BufTy).Contents (Elt Ideal)) (g : (⟨S16x512, .f32⟩ : BufTy).Contents (Elt Ideal)) :
    (⟨S16x512x8192, .f32⟩ : BufTy).Contents (Elt Ideal) :=
  fun i => x i * g (chan i)

/-- The block's result: `x` scaled by the gate of its pooled sums. -/
def result (x : (⟨S16x512x8192, .f32⟩ : BufTy).Contents (Elt Ideal)) (w1 : (⟨S32x512, .f32⟩ : BufTy).Contents (Elt Ideal))
    (b1 : (⟨S32, .f32⟩ : BufTy).Contents (Elt Ideal)) (w2 : (⟨S512x32, .f32⟩ : BufTy).Contents (Elt Ideal))
    (b2 : (⟨S512, .f32⟩ : BufTy).Contents (Elt Ideal)) : (⟨S16x512x8192, .f32⟩ : BufTy).Contents (Elt Ideal) :=
  scaled x (gate (pooled x) w1 b1 w2 b2)

end Cert.KernelIdeal.Excite

end
-- ==== Proof.PoolValue.lean ====
/-
  What the first kernel region leaves in its result array: the pooled sums.

  The grid has 16 points, t = 8·h + l with h ∈ {0, 1} a half of the 512 channels and l ∈ {0, …, 7} a tile of
  1024 positions. At point t the body sees the block x[0:16, 256h : 256h+256, 1024l : 1024l+1024] and the
  result block [0:16, 256h : 256h+256], which stays in place while l runs and is written back when l = 7.
  At l = 0 the body stores zero and then adds the block's sums along the positions; at every later l it adds
  the block's sums to what the point before left. So when the block is written back it holds, at (b, q),

      0 + ∑_{l < 8} ∑_{k < 1024} x (b, 256h + q, 1024l + k),

  and the two written-back blocks tile the [16, 512] array: the array ends at the tile-by-tile pooled sums
  of `x`, which are the pooled sums (`Excite.sum_tiles`). Only additions of extended reals are regrouped, so
  nothing here asks the entries to be finite.
-/
import proofs.«181361_j90417651516343_2_alg».proof.Proof.Gen.KernelIdeal.Frame
import proofs.«181361_j90417651516343_2_alg».proof.Proof.Excite
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Pool

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Excite

/-! ## What one run of the body leaves in the result block -/

section Cases

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first tile's point stores before adding. -/
abbrev zero : Vec F S16x256 .f32 := broadcast S16x256 (Scalar.ofBits .f32 0x00000000#32)

/-- The sums of a [16, 256, 1024] block along its positions. -/
abbrev laneSum (x : Vec F S16x256x1024 .f32) : FVec F S16x256 .f32 :=
  multiReduction .add [2] S16x256 x 0x00000000#32 reduces_S16x256x1024_S16x256 (.inl rfl) rfl

/-- A later tile's point (l ≠ 0): the result block, holding `acc`, ends at `acc` plus the block's sums. -/
theorem out_B (c : Dev nD) (i : grid0.Coords) (a2 : Memref sig .tc .vmem S16x256x1024 .f32) (h2 : a2.IsWhole)
    (a3 : Memref sig .tc .vmem S16x256 .f32) (h3 : a3.IsWhole) (hc : ¬cond0_0 i) (x : Vec F S16x256x1024 .f32)
    (acc : Vec F S16x256 .f32) : out0_B_1 c i a2 h2 a3 h3 hc x acc = addf acc (laneSum x) := by
  unfold out0_B_1
  rw [View.read_writes_eq_canon _ _ _ (cover0_B_1 c i a2 h2 a3 h3 hc x acc)]
  unfold kernelRun0_B
  dsimp only
  rw [View.canon_unit_zero hz2]
  unfold k0_pay2
  simp only [View.readAt_eq_ld, h2.read_unread, h3.read_unread, View.ld_unit_zero (S := S16x256) hz2,
    View.ld_unit_zero (S := S16x256x1024) hz3, shapeCast_self]

/-- The first tile's point (l = 0): the body stores zero, reads it back, and leaves zero plus the block's sums. -/
theorem out_A (c : Dev nD) (i : grid0.Coords) (a2 : Memref sig .tc .vmem S16x256x1024 .f32) (h2 : a2.IsWhole)
    (a3 : Memref sig .tc .vmem S16x256 .f32) (h3 : a3.IsWhole) (hc : cond0_0 i) (x : Vec F S16x256x1024 .f32) :
    out0_A_1 c i a2 h2 a3 h3 hc x = addf zero (laneSum x) := by
  unfold out0_A_1
  rw [View.read_writes_eq_canon _ _ _ (cover0_A_1 c i a2 h2 a3 h3 hc x)]
  unfold kernelRun0_A
  dsimp only
  sl_unfold_words
  rw [View.canon_cons_unit_zero (S := S16x256) hz2, View.readCov_unit_zero (S := S16x256) _ hz2]
  unfold k0_pay2 k0_pay1
  simp only [View.readAt_eq_ld, h2.read_unread, View.ld_unit_zero (S := S16x256x1024) hz3, shapeCast_self]

end Cases

/-! ## Entries of `x` at natural coordinates

Every index below is a triple of naturals computed from a grid point and a block coordinate; reading `x` through a
function of three naturals keeps that arithmetic linear. -/

/-- `x` at the coordinates `(r, q, p)` (zero outside the array, which never happens below). -/
def xn (x : (⟨S16x512x8192, .f32⟩ : BufTy).Contents (Elt Ideal)) (r q p : ℕ) : EReal :=
  if h : r < 16 ∧ q < 512 ∧ p < 8192 then
    x (fun a => match a with | ⟨0, _⟩ => ⟨r, h.1⟩ | ⟨1, _⟩ => ⟨q, h.2.1⟩ | ⟨2, _⟩ => ⟨p, h.2.2⟩)
  else 0

theorem xn_val (x : (⟨S16x512x8192, .f32⟩ : BufTy).Contents (Elt Ideal)) (i : S16x512x8192.Idx) :
    x i = xn x (i 0).val (i 1).val (i 2).val := by
  unfold xn
  rw [dif_pos ⟨(i 0).isLt, (i 1).isLt, (i 2).isLt⟩]
  exact congrArg x (funext fun a => by match a with | ⟨0, _⟩ => rfl | ⟨1, _⟩ => rfl | ⟨2, _⟩ => rfl)

theorem xn_congr (x : (⟨S16x512x8192, .f32⟩ : BufTy).Contents (Elt Ideal)) {r r' q q' p p' : ℕ}
    (h0 : r = r') (h1 : q = q') (h2 : p = p') : xn x r q p = xn x r' q' p' := by subst h0 h1 h2; rfl

/-- The pooled sums taken tile by tile: zero plus, over the 8 tiles, the sum over a tile's 1024 positions. -/
def tiles (x : (⟨S16x512x8192, .f32⟩ : BufTy).Contents (Elt Ideal)) : (⟨S16x512, .f32⟩ : BufTy).Contents (Elt Ideal) :=
  fun j => Ideal.ofBits .f32 0x00000000#32
    + ∑ s ∈ Finset.range 8, ∑ k : Fin 1024, xn x (j 0).val (j 1).val (1024 * s + k.val)

/-- Tile by tile or all at once, the pooled sums are the same extended reals. -/
theorem tiles_eq_pooled (x : (⟨S16x512x8192, .f32⟩ : BufTy).Contents (Elt Ideal)) : tiles x = pooled x := by
  funext j
  unfold tiles pooled
  refine congrArg (Ideal.ofBits .f32 0x00000000#32 + ·) ?_
  rw [← sum_tiles (fun p => xn x (j 0).val (j 1).val p)]
  exact Finset.sum_congr rfl fun k _ => (xn_val x (along j k)).symm

/-! ## The blocks of a point -/

/-- The block index maps, decided once over the 16 points: the `x` block of point `t` is `(0, t / 8, t % 8)`, the
    result block `(0, t / 8)`. -/
theorem idx_facts : ∀ t : Fin cfg0.N, win0_0.index t (0 : Fin 3) = 0 ∧ win0_0.index t (1 : Fin 3) = t.val / 8
    ∧ win0_0.index t (2 : Fin 3) = t.val % 8 ∧ win0_1.index t (0 : Fin 2) = 0 ∧ win0_1.index t (1 : Fin 2) = t.val / 8 :=
  (by decide +kernel : ∀ t : Fin grid0.N, _)

/-- The sums of a block along its positions, over the extended reals: a plain sum over the 1024 positions. -/
theorem laneSum_apply (x : FVec Ideal S16x256x1024 .f32) (y : S16x256.Idx) :
    laneSum (F := Ideal) x y = ∑ k : Fin 1024, x (fun a => match a with
      | ⟨0, _⟩ => ⟨(y 0).val, (y 0).isLt⟩ | ⟨1, _⟩ => ⟨(y 1).val, (y 1).isLt⟩ | ⟨2, _⟩ => ⟨k.val, k.isLt⟩) :=
  (Ideal.multiReduction_add_single x 0x00000000#32 reduces_S16x256x1024_S16x256 (.inl rfl) rfl y).trans
    (Finset.sum_congr rfl fun k _ => congrArg x (funext fun a => Fin.ext (by
      match a with | ⟨0, _⟩ => rfl | ⟨1, _⟩ => rfl | ⟨2, _⟩ => rfl)))

section Fold

variable (V : (c : Dev nD) → (b : Ref sig .tc) → Buf (Elt Ideal) ((c : Thread nD τ).loc b))

/-- Entry `z` of the `x` block of point `t` is `x` at `(z₀, 256·(t / 8) + z₁, 1024·(t % 8) + z₂)`. -/
theorem xblock_apply (c : Dev nD) (t : Fin cfg0.N) (z : S16x256x1024.Idx) :
    iblk0 V c 0 t z = xn (V c main_arg0) (z 0).val (256 * (t.val / 8) + (z 1).val) (1024 * (t.val % 8) + (z 2).val) := by
  unfold iblk0
  rw [View.read_apply]
  show V c main_arg0 (((cfg0.win 0).blk t).view.emb z) = _
  refine (xn_val (V c main_arg0) _).trans ?_
  obtain ⟨e0, e1, e2, -, -⟩ := idx_facts t
  refine xn_congr _ ?_ ?_ ?_
  · show win0_0.index t (0 : Fin 3) * 16 + 1 * (z 0).val = _; rw [e0]; omega
  · show win0_0.index t (1 : Fin 3) * 256 + 1 * (z 1).val = _; rw [e1]; omega
  · show win0_0.index t (2 : Fin 3) * 1024 + 1 * (z 2).val = _; rw [e2]; omega

/-- What point `n` adds to entry `y` of the result block: the sum of its tile of positions. -/
def addend (x : (⟨S16x512x8192, .f32⟩ : BufTy).Contents (Elt Ideal)) (n : ℕ) (y : S16x256.Idx) : EReal :=
  ∑ k : Fin 1024, xn x (y 0).val (256 * (n / 8) + (y 1).val) (1024 * (n % 8) + k.val)

theorem laneSum_xblock (c : Dev nD) (t : Fin cfg0.N) (y : S16x256.Idx) :
    laneSum (F := Ideal) (iblk0 V c 0 t) y = addend (V c main_arg0) t.val y :=
  (laneSum_apply (iblk0 V c 0 t) y).trans (Finset.sum_congr rfl fun k _ => xblock_apply V c t _)

/-! ## The running sum over a half's eight tiles -/

/-- The result block's contents after point `t`: the fold over the tiles of `t`'s half so far — zero plus the first
    tile's sums at the half's first point, plus one more tile's sums at each later point. -/
theorem outsAt_eq_fold (c : Dev nD) (t : Fin cfg0.N) (h' : 8 * (t.val / 8) + t.val % 8 < cfg0.N) :
    outsAt0 V c t.val t.isLt
      = Pipeline.accAt (N := cfg0.N) (fun n h => addf zero (laneSum (iblk0 V c 0 ⟨n, h⟩)))
          (fun n h acc => addf acc (laneSum (iblk0 V c 0 ⟨n, h⟩))) (8 * (t.val / 8)) (t.val % 8) h' :=
  Pipeline.eq_accAt_of_mod (fun n h => outsAt0 V c n h) 8
    (fun n h => addf zero (laneSum (iblk0 V c 0 ⟨n, h⟩))) (fun n h acc => addf acc (laneSum (iblk0 V c 0 ⟨n, h⟩)))
    (fun n h hn => (outsAt0_A V c ⟨n, h⟩ hn).trans
      (out_A c (grid0.coords ⟨n, h⟩) (ms0_0 ⟨n, h⟩) (hs0_0 ⟨n, h⟩) (ms0_1 ⟨n, h⟩) (hs0_1 ⟨n, h⟩) _ (iblk0 V c 0 ⟨n, h⟩)))
    (fun n h hn => (outsAt0_B V c ⟨n + 1, h⟩ hn).trans
      (out_B c (grid0.coords ⟨n + 1, h⟩) (ms0_0 ⟨n + 1, h⟩) (hs0_0 ⟨n + 1, h⟩) (ms0_1 ⟨n + 1, h⟩) (hs0_1 ⟨n + 1, h⟩) _
        (iblk0 V c 0 ⟨n + 1, h⟩) (outsAt0 V c n (Nat.lt_of_succ_lt h))))
    (by decide) t.val t.isLt h'

/-- The fold opened at an entry: after point `t`, zero plus the sums of the tiles `0 … t % 8` of `t`'s half. -/
theorem outsAt_apply (c : Dev nD) (t : Fin cfg0.N) (y : S16x256.Idx) :
    outsAt0 V c t.val t.isLt y = Ideal.ofBits .f32 0x00000000#32
      + ∑ s ∈ Finset.range (t.val % 8 + 1), addend (V c main_arg0) (8 * (t.val / 8) + s) y := by
  have h' : 8 * (t.val / 8) + t.val % 8 < cfg0.N := by rw [Nat.div_add_mod]; exact t.isLt
  rw [outsAt_eq_fold V c t h']
  exact Pipeline.accAt_add_apply (N := cfg0.N) _ _ (fun _ => Ideal.ofBits .f32 0x00000000#32) (addend (V c main_arg0))
    (8 * (t.val / 8)) 7
    (fun h y => congrArg (Ideal.ofBits .f32 0x00000000#32 + ·) (laneSum_xblock V c ⟨_, h⟩ y))
    (fun n h acc y _ _ => congrArg (acc y + ·) (laneSum_xblock V c ⟨n, h⟩ y))
    (t.val % 8) (by omega) h' y

/-! ## From the written-back blocks to the array -/

/-- An entry of the [16, 512] array lies in the result block of point `t` iff each coordinate lies in the block's range. -/
theorem mem_blk (t : Fin cfg0.N) (i : S16x512.Idx) :
    i ∈ ((cfg0.win 1).blk t).view.set ↔ ∀ a : Fin 2, win0_1.index t a * S16x256.size a ≤ (i a).val
      ∧ (i a).val < win0_1.index t a * S16x256.size a + S16x256.size a := by
  show i ∈ ((View.whole main_v0).slice (win0_1.rect t)).set ↔ _
  rw [View.set_slice_whole, Rect.mem_set_unit]
  exact Iff.rfl

/-- What a writing-back point (the last tile of a half) writes is its block of the tile-by-tile pooled sums. -/
theorem flushed_eq (c : Dev nD) (t : Fin cfg0.N) (hf : (cfg0.win 1).flush t = true) :
    (dat0 V c).flushed 1 t = ((cfg0.win 1).blk t).view.read (Elt Ideal) (tiles (V c main_arg0)) := by
  have h7 : t.val % 8 = 7 := (flush0_1 t).mp hf
  show (cfg0.win 1).cut (grid0.coords t) ((dat0 V c).after 1 t) = _
  rw [after0_1]
  funext y
  rw [View.read_apply]
  show outsAt0 V c t.val t.isLt y = tiles (V c main_arg0) (((cfg0.win 1).blk t).view.emb y)
  rw [outsAt_apply V c t y, h7]
  unfold tiles
  obtain ⟨-, -, -, e3, e4⟩ := idx_facts t
  refine congrArg (Ideal.ofBits .f32 0x00000000#32 + ·) (Finset.sum_congr rfl fun s hs => ?_)
  have hs' : s < 8 := Finset.mem_range.mp hs
  unfold addend
  refine Finset.sum_congr rfl fun k _ => xn_congr _ ?_ ?_ ?_
  · show (y 0).val = win0_1.index t (0 : Fin 2) * 16 + 1 * (y 0).val; rw [e3]; omega
  · show 256 * ((8 * (t.val / 8) + s) / 8) + (y 1).val = win0_1.index t (1 : Fin 2) * 256 + 1 * (y 1).val; rw [e4]; omega
  · show 1024 * ((8 * (t.val / 8) + s) % 8) + k.val = 1024 * s + k.val; omega

/-- Every entry `(b, c)` of the array is in the block written back at the last tile of `c`'s half. -/
theorem cover (i : S16x512.Idx) :
    ∃ t : Fin cfg0.N, (cfg0.win 1).flush t = true ∧ i ∈ ((cfg0.win 1).blk t).view.set := by
  have hN : cfg0.N = 16 := N_0
  have h0 : (i 0).val < 16 := (i 0).isLt
  have h1 : (i 1).val < 512 := (i 1).isLt
  have hb : 8 * ((i 1).val / 256) + 7 < cfg0.N := by rw [hN]; omega
  obtain ⟨-, -, -, e3, e4⟩ := idx_facts ⟨8 * ((i 1).val / 256) + 7, hb⟩
  refine ⟨⟨8 * ((i 1).val / 256) + 7, hb⟩, (flush0_1 _).mpr (by show (8 * ((i 1).val / 256) + 7) % 8 = 7; omega), ?_⟩
  rw [mem_blk]
  intro a
  match a with
  | ⟨0, _⟩ =>
    show win0_1.index ⟨8 * ((i 1).val / 256) + 7, hb⟩ (0 : Fin 2) * 16 ≤ (i 0).val
      ∧ (i 0).val < win0_1.index ⟨8 * ((i 1).val / 256) + 7, hb⟩ (0 : Fin 2) * 16 + 16
    rw [e3]; omega
  | ⟨1, _⟩ =>
    show win0_1.index ⟨8 * ((i 1).val / 256) + 7, hb⟩ (1 : Fin 2) * 256 ≤ (i 1).val
      ∧ (i 1).val < win0_1.index ⟨8 * ((i 1).val / 256) + 7, hb⟩ (1 : Fin 2) * 256 + 256
    rw [e4]; show (8 * ((i 1).val / 256) + 7) / 8 * 256 ≤ (i 1).val ∧ (i 1).val < (8 * ((i 1).val / 256) + 7) / 8 * 256 + 256; omega

/-- THE FIRST REGION'S RESULT: its array ends at the pooled sums of the `x` it found. -/
theorem final (c : Dev nD) : (dat0 V c).arrAt 1 cfg0.N = pooled (V c main_arg0) :=
  ((dat0 V c).arrAt_eq_of_cover 1 (tiles (V c main_arg0)) (flushed_eq V c) cover).trans (tiles_eq_pooled _)

end Fold

end Cert.KernelIdeal.Pool

end
-- ==== Proof.HostMiddle.lean ====
/-
  Between the two kernel regions: the host operations that turn the first region's pooled sums into the gate.

  When the second region is entered, its gate operand holds `gate` of the first region's result array and of
  the four weight arrays as launched (no operation writes an argument array), and its `x` operand is `x` as
  launched. These are read off the program's host operations one by one; the gate itself stays closed.
-/
import proofs.«181361_j90417651516343_2_alg».proof.Proof.Gen.KernelIdeal.Frame
import proofs.«181361_j90417651516343_2_alg».proof.Proof.Excite
import Idealize.ShloMosaic.Lib.StableHlo.Run

noncomputable section

namespace Cert.KernelIdeal.Middle

open Idealize.ShloMosaic Idealize.ShloMosaic.TcCoe Idealize.SL.Sem Idealize.ShloMosaic.StableHlo
open Cert.KernelIdeal Cert.KernelIdeal.Gen Cert.KernelIdeal.Excite

variable {F : FTy → Type} [FloatOps F]
variable (m : (ℓ : Loc nD τ sig) → Buf (Elt F) ℓ) (ρ : Dev nD → PrngReg)

/-- The second region's gate operand, at its entry, is the gate of the first region's result array. -/
theorem gate_operand (c : Dev nD) :
    V4 m ρ c main_v19 = gate (V1 m ρ c main_v0) (m ((c.tc : Thread nD τ).loc main_arg1)) (m ((c.tc : Thread nD τ).loc main_arg2))
      (m ((c.tc : Thread nD τ).loc main_arg3)) (m ((c.tc : Thread nD τ).loc main_arg4)) := by
  show StableHlo.after hostOps1_2 (StableHlo.after hostOps1_1 (StableHlo.after hostOps1 (W1 m ρ c))) (Proc.devRef .tc main_v19) = _
  after_results
  rw [W1_of_ne m ρ c main_arg1 (by decide), W1_of_ne m ρ c main_arg2 (by decide), W1_of_ne m ρ c main_arg3 (by decide),
    W1_of_ne m ρ c main_arg4 (by decide)]
  rfl

/-- The second region's `x` operand, at its entry, is `x` as launched: the first region only reads it, and no host
    operation writes it. -/
theorem x_operand (c : Dev nD) : V4 m ρ c main_arg0 = m ((c.tc : Thread nD τ).loc main_arg0) := by
  show StableHlo.after hostOps1_2 (StableHlo.after hostOps1_1 (StableHlo.after hostOps1 (W1 m ρ c))) (Proc.devRef .tc main_arg0) = _
  after_results
  exact (W1_arr m ρ c 0).trans (((dat0 (V0 m ρ) c).arrAt_in 0 rfl _).trans (A_eq0 (V0 m ρ) c 0))

end Cert.KernelIdeal.Middle

end
-- ==== Proof.ScaleValue.lean ====
/-
  What the rescaling region leaves in its output array.

  The region walks a grid of 32 points. The array x : [16, 512, 8192] is cut along its last axis into 32 blocks
  of 256 positions: block t holds the entries (b, c, 256·t + l) with b < 16, c < 512, l < 256. The gate
  g : [16, 512] is not cut at all: its one block is the whole array, the same at every point. At point t the
  body multiplies entry (b, c, l) of x's block t by g (b, c) — the gate is first given a trailing axis of
  length one, [16, 512] → [16, 512, 1], and then repeated 256 times along it, so that position l plays no part
  in which gate entry is read — and the product block is written to block t of the output array.

  So the output entry at (b, c, 256·t + l) is written exactly once, at point t, and it is

      x (b, c, 256·t + l) · g (b, c):

  it depends on the one entry of x at the same index and on the one gate entry of its channel pair (b, c).
  Every index (b, c, p) of the output lies in the block of the point t = p / 256, so after the 32 points the
  whole array is `scaled x g`. The multiplication is the extended reals'; it is only ever applied entry by
  entry and never regrouped, so nothing is assumed about the entries being finite.

  The steps below: the body's product at one index of a block; the three block-index maps read off the grid
  once; an input block's entry as an entry of its array; what a point writes back, as block t of `scaled x g`;
  the blocks cover the array; the array after the last point.
-/
import proofs.«181361_j90417651516343_2_alg».proof.Proof.Gen.KernelIdeal.Frame
import proofs.«181361_j90417651516343_2_alg».proof.Proof.Excite
import Idealize.ShloMosaic.Lib.Pipeline.Value
import Idealize.ShloMosaic.Lib.ValueIdx

noncomputable section

namespace Cert.KernelIdeal.Scale

open Idealize.ShloMosaic Idealize.ShloMosaic.TcCoe Idealize.SL.Sem Cert.KernelIdeal Cert.KernelIdeal.Gen Cert.KernelIdeal.Excite
open Idealize.ShloMosaic.Pipeline (Dat)
open Idealize.ShloMosaic.ValueIdx

/-! ## The body's product at an index of a block -/

/-- The offsets of the body's load of the gate block are all zero. -/
theorem zeros2 : (![0, 0] : Fin 2 → Nat) = fun _ => 0 := funext fun a => by fin_cases a <;> rfl
/-- The offsets of the body's load of the x block, and of its store, are all zero. -/
theorem zeros3 : (![0, 0, 0] : Fin 3 → Nat) = fun _ => 0 := funext fun a => by fin_cases a <;> rfl

/-- Entry (b, q, l) of the product block is entry (b, q, l) of the x block times entry (b, q) of the gate block.
    The second factor is the gate block carried through three changes of layout, read from the outside in:
    the repetition [16, 512, 1] → [16, 512, 256] reads (b, q, l) at (b, q, 0), whatever l is; the new trailing
    axis [16, 512] → [16, 512, 1] keeps the row-major position, and (b, q, 0) sits at position
    (512·b + q)·1 + 0 = 512·b + q, the position of (b, q); the cast of [16, 512] to itself changes nothing. -/
theorem payload_apply (x0 : Vec Ideal S16x512x256 .f32) (x1 : Vec Ideal S16x512 .f32) (b : Fin 16) (q : Fin 512) (l : Fin 256) :
    k1_pay1 x0 x1 (ix3 b q l) = x0 (ix3 b q l) * x1 (ix2 b q) := by
  unfold k1_pay1
  refine congrArg (x0 (ix3 b q l) * ·) ?_
  refine (broadcastTo_apply _ _ (ix3 b q l) (ix3 b q (0 : Fin 1)) ?_).trans ?_
  · intro a
    match a with
    | ⟨0, _⟩ => rfl
    | ⟨1, _⟩ => rfl
    | ⟨2, _⟩ => rfl
  refine (shapeCast_apply _ _ (ix3 b q (0 : Fin 1)) (ix2 b q) ?_).trans ?_
  · rw [Shape.rowMajor_val_two, Shape.rowMajor_val_three]
    show b.val * 512 + q.val = (b.val * 512 + q.val) * 1 + 0
    omega
  rw [shapeCast_self]

/-- The same at any index y of the block, split into its three coordinates: the gate entry read is the one at
    y's first two coordinates. -/
theorem payload_at (x0 : Vec Ideal S16x512x256 .f32) (x1 : Vec Ideal S16x512 .f32) (y : S16x512x256.Idx) :
    k1_pay1 x0 x1 y = x0 y * x1 (ix2 (y 0) (y 1)) := by
  obtain ⟨b, q, l, rfl⟩ : ∃ (b : Fin 16) (q : Fin 512) (l : Fin 256), y = ix3 b q l := ⟨y 0, y 1, y 2, eq_ix3 y⟩
  exact payload_apply x0 x1 b q l

/-! ## Which block each point sees -/

/-- The three index maps over the 32 points, decided once: at point t the x window and the output window are
    both at block (0, 0, t) — they move together along the last axis — and the gate window stays at block (0, 0). -/
theorem index_facts : ∀ t : Fin cfg1.N,
    win1_0.index t (0 : Fin 3) = 0 ∧ win1_0.index t (1 : Fin 3) = 0 ∧ win1_0.index t (2 : Fin 3) = t.val
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val :=
  (by decide +kernel : ∀ t : Fin grid1.N, _)

section Blocks

variable (V : (c : Dev nD) → (b : Ref sig .tc) → Buf (Elt Ideal) ((c : Thread nD τ).loc b)) (c : Dev nD)

/-! ## An input block's entry as an entry of its array

A block's coordinate in its array is, axis by axis, (block index) × (block size) + the coordinate inside the block. -/

/-- Entry y of x's block at point t is the entry of x at the same first two coordinates and at position
    256·t + (y's position) of the last axis. -/
theorem x_block_apply (t : Fin cfg1.N) (y : S16x512x256.Idx) (k : S16x512x8192.Idx)
    (h0 : (k 0).val = (y 0).val) (h1 : (k 1).val = (y 1).val) (h2 : (k 2).val = 256 * t.val + (y 2).val) :
    (iblk1 (F := Ideal) V c 0 t : Vec Ideal S16x512x256 .f32) y = (V c main_arg0 : S16x512x8192.Idx → Elt Ideal .f32) k := by
  obtain ⟨e0, e1, e2, -⟩ := index_facts t
  unfold iblk1
  rw [View.read_apply]
  show V c main_arg0 _ = V c main_arg0 _
  congr 1
  funext a
  apply Fin.ext
  match a with
  | ⟨0, _⟩ => show win1_0.index t (0 : Fin 3) * 16 + 1 * (y 0).val = (k 0).val; omega
  | ⟨1, _⟩ => show win1_0.index t (1 : Fin 3) * 512 + 1 * (y 1).val = (k 1).val; omega
  | ⟨2, _⟩ => show win1_0.index t (2 : Fin 3) * 256 + 1 * (y 2).val = (k 2).val; omega

/-- The gate's block at every point is the gate itself: block (0, 0) of size [16, 512] in a [16, 512] array. -/
theorem g_block_apply (t : Fin cfg1.N) (y : S16x512.Idx) :
    (iblk1 (F := Ideal) V c 1 t : Vec Ideal S16x512 .f32) y = (V c main_v19 : S16x512.Idx → Elt Ideal .f32) y := by
  obtain ⟨-, -, -, e0, e1, -⟩ := index_facts t
  unfold iblk1
  rw [View.read_apply]
  show V c main_v19 _ = V c main_v19 _
  congr 1
  funext a
  apply Fin.ext
  match a with
  | ⟨0, _⟩ => show win1_1.index t (0 : Fin 2) * 16 + 1 * (y 0).val = (y 0).val; omega
  | ⟨1, _⟩ => show win1_1.index t (1 : Fin 2) * 512 + 1 * (y 1).val = (y 1).val; omega

/-! ## What a point writes back -/

/-- WHAT POINT t WRITES BACK is block t of `scaled x g`, for x and g the arrays as the region finds them.
    The body's one store fills the whole staging block with its product of the two loaded blocks. At index y of
    the block, the array index under y is i = (y 0, y 1, 256·t + y 2) (the output window is at block (0, 0, t));
    the product there is (x block) y · (gate block) (y 0, y 1); the x block's entry y is x i because the x window
    is at the same block (0, 0, t); the gate block's entry (y 0, y 1) is g (y 0, y 1), and (y 0, y 1) is the
    channel pair of i. -/
theorem flushed_eq (t : Fin cfg1.N) :
    (dat1 (F := Ideal) V c).flushed 2 t = ((cfg1.win 2).blk t).view.read (Elt Ideal) (scaled (V c main_arg0) (V c main_v19)) := by
  show (cfg1.win 2).cut (grid1.coords t) ((dat1 (F := Ideal) V c).after 2 t) = _
  rw [after1_2]
  unfold out1_2
  rw [View.canon_unit_zero zeros3]
  simp only [View.ld_unit_zero (S := S16x512x256) zeros3, View.ld_unit_zero (S := S16x512) zeros2]
  refine funext fun (y : S16x512x256.Idx) => ?_
  rw [View.read_apply]
  show k1_pay1 (iblk1 V c 0 t) (iblk1 V c 1 t) y
    = scaled (V c main_arg0) (V c main_v19) (((cfg1.win 2).blk t).view.emb y)
  obtain ⟨-, -, -, -, -, e0, e1, e2⟩ := index_facts t
  -- the array index under `y`, coordinate by coordinate
  have h0 : ((((cfg1.win 2).blk t).view.emb y : S16x512x8192.Idx) 0).val = (y 0).val := by
    show win1_2.index t (0 : Fin 3) * 16 + 1 * (y 0).val = (y 0).val; omega
  have h1 : ((((cfg1.win 2).blk t).view.emb y : S16x512x8192.Idx) 1).val = (y 1).val := by
    show win1_2.index t (1 : Fin 3) * 512 + 1 * (y 1).val = (y 1).val; omega
  have h2 : ((((cfg1.win 2).blk t).view.emb y : S16x512x8192.Idx) 2).val = 256 * t.val + (y 2).val := by
    show win1_2.index t (2 : Fin 3) * 256 + 1 * (y 2).val = 256 * t.val + (y 2).val; omega
  -- its channel pair is `y`'s first two coordinates
  have hchan : ix2 (y 0) (y 1) = chan (((cfg1.win 2).blk t).view.emb y : S16x512x8192.Idx) := by
    funext a
    apply Fin.ext
    match a with
    | ⟨0, _⟩ => exact h0.symm
    | ⟨1, _⟩ => exact h1.symm
  refine (payload_at _ _ y).trans ?_
  exact congrArg₂ (· * ·) (x_block_apply V c t y _ h0 h1 h2)
    ((g_block_apply V c t _).trans (congrArg (V c main_v19 : S16x512.Idx → Elt Ideal .f32) hchan))

end Blocks

/-! ## The blocks cover the array -/

/-- An index of the output array is in point t's block iff, on each axis, its coordinate is within the block's
    range there: from (block index) × (block size), for (block size) positions. -/
theorem mem_block (t : Fin cfg1.N) (i : S16x512x8192.Idx) :
    i ∈ ((cfg1.win 2).blk t).view.set ↔ ∀ a : Fin 3, win1_2.index t a * S16x512x256.size a ≤ (i a).val ∧ (i a).val < win1_2.index t a * S16x512x256.size a + S16x512x256.size a := by
  show i ∈ ((View.whole main_v20).slice (win1_2.rect t)).set ↔ _
  rw [View.set_slice_whole, Rect.mem_set_unit]
  exact Iff.rfl

/-- Every index (b, c, p) of the output array is in the block some point writes back: the point t = p / 256, whose
    block is all of the first two axes and the positions 256·t ≤ p < 256·t + 256 of the last; p < 8192 puts t
    among the 32 points, and every point writes its block back. -/
theorem cover (i : S16x512x8192.Idx) :
    ∃ t : Fin cfg1.N, (cfg1.win 2).flush t = true ∧ i ∈ ((cfg1.win 2).blk t).view.set := by
  have hN : cfg1.N = 32 := N_1
  have hi0 : (i 0).val < 16 := (i 0).isLt
  have hi1 : (i 1).val < 512 := (i 1).isLt
  have hi2 : (i 2).val < 8192 := (i 2).isLt
  obtain ⟨t, ht⟩ : ∃ t : Fin cfg1.N, t.val = (i 2).val / 256 := ⟨⟨(i 2).val / 256, by omega⟩, rfl⟩
  obtain ⟨-, -, -, -, -, e0, e1, e2⟩ := index_facts t
  refine ⟨t, flush1_2 t, ?_⟩
  rw [mem_block]
  intro a
  match a with
  | ⟨0, _⟩ => show win1_2.index t (0 : Fin 3) * 16 ≤ (i 0).val ∧ (i 0).val < win1_2.index t (0 : Fin 3) * 16 + 16; omega
  | ⟨1, _⟩ => show win1_2.index t (1 : Fin 3) * 512 ≤ (i 1).val ∧ (i 1).val < win1_2.index t (1 : Fin 3) * 512 + 512; omega
  | ⟨2, _⟩ => show win1_2.index t (2 : Fin 3) * 256 ≤ (i 2).val ∧ (i 2).val < win1_2.index t (2 : Fin 3) * 256 + 256; omega

/-! ## The array after the last point -/

/-- After the 32 points the output array holds, at every index (b, c, l), x (b, c, l) · g (b, c), where x and g are
    what the region found in its two input arrays: each point writes back its block of that function, and the
    blocks cover the array. -/
theorem final (V : (c : Dev nD) → (b : Ref sig .tc) → Buf (Elt Ideal) ((c : Thread nD τ).loc b)) (c : Dev nD) :
    (dat1 (F := Ideal) V c).arrAt 2 cfg1.N = scaled (V c main_arg0) (V c main_v19) :=
  (dat1 (F := Ideal) V c).arrAt_eq_of_cover 2 (scaled (V c main_arg0) (V c main_v19)) (fun t _ => flushed_eq V c t) cover

end Cert.KernelIdeal.Scale

end
-- ==== Proof.KernelValue.lean ====
/-
  The idealized kernel's result, whole: `Excite.result` of the arguments.

  Reading the program segment by segment: the first region leaves the pooled sums of `x` in its result array
  (`Pool.final`); the host operations turn that array into the gate, and leave `x` as launched
  (`Middle.gate_operand`, `Middle.x_operand`); the second region leaves, at every index (b, c, l), the entry of the
  `x` it found times the entry (b, c) of the gate it found (`Scale.final`). Chained, the result array of the run
  is `x` scaled by the gate of its pooled sums — the same closed term the reference is read to.
-/
import proofs.«181361_j90417651516343_2_alg».proof.Proof.KernelRun
import proofs.«181361_j90417651516343_2_alg».proof.Proof.PoolValue
import proofs.«181361_j90417651516343_2_alg».proof.Proof.HostMiddle
import proofs.«181361_j90417651516343_2_alg».proof.Proof.ScaleValue

noncomputable section

namespace Cert.KernelIdeal.Whole

open Idealize.ShloMosaic Idealize.ShloMosaic.TcCoe Idealize.SL.Sem
open Cert.KernelIdeal Cert.KernelIdeal.Gen Cert.KernelIdeal.Excite

variable (m : (ℓ : Loc nD τ sig) → Buf (Elt Ideal) ℓ) (ρ : Dev nD → PrngReg)

/-- The first region's result array, as the host operations find it: the pooled sums of `x` as launched. -/
theorem pooled_entry (c : Dev nD) : V1 m ρ c main_v0 = pooled (m ((c.tc : Thread nD τ).loc main_arg0)) :=
  (W1_arr m ρ c 1).trans (Pool.final (V0 m ρ) c)

/-- The result array after the run is `x` scaled by the gate of its pooled sums. -/
theorem result_eq (c : Dev nD) :
    W5 m ρ c (Proc.devRef .tc main_v20)
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  calc W5 m ρ c (Proc.devRef .tc main_v20)
      = (dat1 (V4 m ρ) c).arrAt 2 cfg1.N := W5_arr m ρ c 2
    _ = scaled (V4 m ρ c main_arg0) (V4 m ρ c main_v19) := Scale.final (V4 m ρ) c
    _ = scaled (m ((c.tc : Thread nD τ).loc main_arg0))
          (gate (V1 m ρ c main_v0) (m ((c.tc : Thread nD τ).loc main_arg1)) (m ((c.tc : Thread nD τ).loc main_arg2))
            (m ((c.tc : Thread nD τ).loc main_arg3)) (m ((c.tc : Thread nD τ).loc main_arg4))) := by
        rw [Middle.x_operand m ρ c, Middle.gate_operand m ρ c]
    _ = _ := by rw [pooled_entry m ρ c]; rfl

/-- Every weakly fair execution of the idealized kernel terminates without a fault, with the result array at
    `Excite.result` of the argument arrays and the argument arrays unchanged. -/
theorem run : θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Run.run_named m ρ)

end Cert.KernelIdeal.Whole

end
-- ==== Proof.RefValue.lean ====
/-
  The reference, read index by index: it computes `Excite.result`.

  The jnp reference takes the mean over the positions as a sum divided by 8192, runs the two linear layers with
  the rectifier and the logistic between and after them, and multiplies every position of a channel entry by
  that entry's gate. Its pooled sums are the zero it starts from plus the sum over all 8192 positions
  (`Excite.pooled`); from the pooled sums on it applies exactly the operations `Excite.gate` is made of; and
  the two broadcasts that bring the gate [16, 512] to [16, 512, 8192] read entry (b, c, l) at (b, c).
-/
import proofs.«181361_j90417651516343_2_alg».proof.Proof.Gen.ReferenceIdeal.Read
import proofs.«181361_j90417651516343_2_alg».proof.Proof.Excite

noncomputable section

namespace Cert.ReferenceIdeal.RefValue

open Idealize.ShloMosaic Cert.ReferenceIdeal Cert.ReferenceIdeal.Read
open Cert.KernelIdeal.Excite (gate pooled scaled result along chan)

/-- The reference's sum over the positions is the pooled sum. -/
theorem pooled_eq (x0 : (⟨S16x512x8192, .f32⟩ : BufTy).Contents (Elt Ideal)) :
    val_main_v0 (F := Ideal) x0 = pooled x0 := by
  funext j
  rw [val_main_v0_apply]
  unfold pooled
  refine congrArg (Ideal.ofBits .f32 0x00000000#32 + ·) (Finset.sum_congr rfl fun k _ => congrArg x0 ?_)
  exact funext fun a => by match a with | ⟨0, _⟩ => rfl | ⟨1, _⟩ => rfl | ⟨2, _⟩ => rfl

/-- From its pooled sums on, the reference applies the gate's operations, one for one. -/
theorem gate_eq (x0 : (⟨S16x512x8192, .f32⟩ : BufTy).Contents (Elt Ideal)) (x1 : (⟨S32x512, .f32⟩ : BufTy).Contents (Elt Ideal))
    (x2 : (⟨S32, .f32⟩ : BufTy).Contents (Elt Ideal)) (x3 : (⟨S512x32, .f32⟩ : BufTy).Contents (Elt Ideal))
    (x4 : (⟨S512, .f32⟩ : BufTy).Contents (Elt Ideal)) :
    val_main_v19 (F := Ideal) x0 x1 x2 x3 x4 = gate (val_main_v0 (F := Ideal) x0) x1 x2 x3 x4 := rfl

/-- The reference's result is `x` scaled by the gate of its pooled sums. -/
theorem result_eq (x0 : (⟨S16x512x8192, .f32⟩ : BufTy).Contents (Elt Ideal)) (x1 : (⟨S32x512, .f32⟩ : BufTy).Contents (Elt Ideal))
    (x2 : (⟨S32, .f32⟩ : BufTy).Contents (Elt Ideal)) (x3 : (⟨S512x32, .f32⟩ : BufTy).Contents (Elt Ideal))
    (x4 : (⟨S512, .f32⟩ : BufTy).Contents (Elt Ideal)) :
    val_main_v22 (F := Ideal) x0 x1 x2 x3 x4 = result x0 x1 x2 x3 x4 := by
  funext i
  rw [val_main_v22_apply, val_main_v21_apply, val_main_v20_apply, gate_eq, pooled_eq]
  have e : idx_main_v20 (idx_main_v21 i) = chan i :=
    funext fun a => by match a with | ⟨0, _⟩ => rfl | ⟨1, _⟩ => rfl
  rw [e]
  rfl

end Cert.ReferenceIdeal.RefValue

end
-- ==== Proof.lean ====
/-
  A squeeze-and-excite block over x : f32[16, 512, 8192], as two pipelined kernels with a small host program
  between them, against its jnp reference.

  Both programs compute, over the extended reals,

      out (b, c, l) = x (b, c, l) · g (b, c),
      g = 1 / (1 + exp (-(relu ((s / 8192) · w1ᵀ + b1) · w2ᵀ + b2))),     s (b, c) = 0 + ∑ₗ x (b, c, l).

  The kernel takes the pooled sums s in a first region, tile by tile: for each half of the channels, eight
  tiles of 1024 positions are summed along the positions and added into a block that stays in place, zeroed at
  the first tile and written back after the last (`Pool.final`). The host operations that follow are, one for
  one, the reference's (`Excite.gate`, never opened). A second region multiplies each [16, 512, 256] block of x
  by the gate (`Scale.final`). The reference sums all 8192 positions at once; the only algebra between the two
  is the regrouping of that sum into tiles, valid in any commutative monoid (`Excite.sum_tiles`), so the
  precondition — every input finite — is never used: the equality holds at infinite entries too.

  The ideal pass rewrote nothing in the kernel, so the preservation claim is trivial; the three frames are the
  generated frame theorems (the reference's is its run with the result dropped).
-/
import proofs.«181361_j90417651516343_2_alg».proof.Defs
import proofs.«181361_j90417651516343_2_alg».proof.Proof.Gen.Kernel
import proofs.«181361_j90417651516343_2_alg».proof.Proof.Gen.Kernel.Frame
import proofs.«181361_j90417651516343_2_alg».proof.Proof.Gen.KernelIdeal
import proofs.«181361_j90417651516343_2_alg».proof.Proof.Gen.KernelIdeal.Frame
import proofs.«181361_j90417651516343_2_alg».proof.Proof.Gen.ReferenceIdeal
import proofs.«181361_j90417651516343_2_alg».proof.Proof.Gen.ReferenceIdeal.Run
import proofs.«181361_j90417651516343_2_alg».proof.Proof.Gen.ReferenceIdeal.Read
import proofs.«181361_j90417651516343_2_alg».proof.Proof.Gen.Pre_finite_inputs
import proofs.«181361_j90417651516343_2_alg».proof.Proof.KernelValue
import proofs.«181361_j90417651516343_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the five arguments, the idealized kernel's result array ends at
    `Excite.result` of its arguments (`Whole.run`) and the reference's at its composed term, which is the same
    function of the same arguments (`RefValue.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
